-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x8192x2048 : Shape := ⟨3, ![6, 8192, 2048]⟩
abbrev S2048x2048 : Shape := ⟨2, ![2048, 2048]⟩
abbrev S_ : Shape := ⟨0, ![]⟩

class Facts : Prop where
  bcast_S_S6x8192x2048 : S_.BroadcastsInDim S6x8192x2048 (![] : Fin 0 → Fin S6x8192x2048.rank)
  reducesTo_S6x8192x2048_S_d0_1_2 : S6x8192x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S6x8192x2048 .f32) (main_arg1 : FVec F S2048x2048 .f32) : IVec S_ 1 :=
  let main_v0 : FVec F S6x8192x2048 .f32 := Host.absf main_arg0
  let main_cst : FVec F S_ .f32 := constant S_ .f32 0x7F800000#32
  let main_v1 : FVec F S6x8192x2048 .f32 := broadcastInDim S6x8192x2048 ![] bcast_S_S6x8192x2048 main_cst
  let main_v2 : IVec S6x8192x2048 1 := cmpf .olt main_v0 main_v1
  let main_c : IVec S_ 1 := constantI S_ 1 1#1
  let main_v3 : IVec S_ 1 := (fun x v => Host.reduce IntOp.andi x v reducesTo_S6x8192x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S6x8192x2048 : Shape := ⟨3, ![6, 8192, 2048]⟩
abbrev S2048x2048 : Shape := ⟨2, ![2048, 2048]⟩
abbrev S8192x2048 : Shape := ⟨2, ![8192, 2048]⟩
abbrev S6x128x2048 : Shape := ⟨3, ![6, 128, 2048]⟩
abbrev S128x2048 : Shape := ⟨2, ![128, 2048]⟩
abbrev S768x2048 : Shape := ⟨2, ![768, 2048]⟩
abbrev S6x128 : Shape := ⟨2, ![6, 128]⟩
abbrev S6x128x1 : Shape := ⟨3, ![6, 128, 1]⟩
abbrev S128x1 : Shape := ⟨2, ![128, 1]⟩
abbrev S2048x256 : Shape := ⟨2, ![2048, 256]⟩
abbrev S768x256 : Shape := ⟨2, ![768, 256]⟩
abbrev S6x128x256 : Shape := ⟨3, ![6, 128, 256]⟩
abbrev S128x256 : Shape := ⟨2, ![128, 256]⟩
abbrev S1x128x256 : Shape := ⟨3, ![1, 128, 256]⟩

abbrev nBuf : Space → Nat
  | .hbm => 5
  | .vmem => 5
  | .smem => 0
  | _ => 0

abbrev bufTy : (tb : Table) → Fin (tcTables nBuf tb) → BufTy
  | .hbm, ⟨0, _⟩ => ⟨S6x8192x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S8192x2048, .f32⟩
  | .local _ .vmem, ⟨0, _⟩ => ⟨S6x128x2048, .f32⟩
  | .local _ .vmem, ⟨1, _⟩ => ⟨S6x128x2048, .f32⟩
  | .local _ .vmem, ⟨2, _⟩ => ⟨S2048x2048, .bf16⟩
  | .local _ .vmem, ⟨3, _⟩ => ⟨S128x2048, .f32⟩
  | .local _ .vmem, ⟨4, _⟩ => ⟨S128x2048, .f32⟩
  | _, _ => ⟨S6x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S2048x2048_S2048x2048_1_0 : S2048x2048.Transposes [1, 0] S2048x2048
  bitsLt_bf16_f32 : FTy.bits .bf16 < FTy.bits .f32
  inb_S6x128x2048_S6x128x2048_0_0_0 : ∀ a, (![0, 0, 0] : Fin 3 → Nat) a + S6x128x2048.size a ≤ S6x128x2048.size a
  h_S6x128x2048 : 0 < S6x128x2048.numel
  shapeCasts_S6x128x2048_S768x2048 : S6x128x2048.ShapeCasts S768x2048
  reduces_S6x128x2048_S6x128 : S6x128x2048.Reduces [2] S6x128
  shapeCasts_S6x128_S6x128x1 : S6x128.ShapeCasts S6x128x1
  natLt_1_32 : 1 < 32
  reduces_S6x128x1_S128x1 : S6x128x1.Reduces [0] S128x1
  inb_S2048x2048_S2048x256_0_0 : ∀ a, (![0, 0] : Fin 2 → Nat) a + S2048x256.size a ≤ S2048x2048.size a
  h_S2048x256 : 0 < S2048x256.numel
  shapeCasts_S2048x256_S2048x256 : S2048x256.ShapeCasts S2048x256
  shapeCasts_S768x256_S6x128x256 : S768x256.ShapeCasts S6x128x256
  reduces_S6x128x256_S128x256 : S6x128x256.Reduces [0] S128x256
  shapeCasts_S128x256_S1x128x256 : S128x256.ShapeCasts S1x128x256
  broadcasts_S1x128x256_S6x128x256 : S1x128x256.Broadcasts S6x128x256
  slices_S6x128x2048_o0_0_0_S6x128x256 : S6x128x2048.Slices ![0, 0, 0] S6x128x256
  broadcasts_S128x1_S128x256 : S128x1.Broadcasts S128x256
  inb_S128x2048_S128x256_0_0 : ∀ a, (![0, 0] : Fin 2 → Nat) a + S128x256.size a ≤ S128x2048.size a
  h_S128x256 : 0 < S128x256.numel
  inb_S2048x2048_S2048x256_0_256 : ∀ a, (![0, 256] : Fin 2 → Nat) a + S2048x256.size a ≤ S2048x2048.size a
  slices_S6x128x2048_o0_0_256_S6x128x256 : S6x128x2048.Slices ![0, 0, 256] S6x128x256
  inb_S128x2048_S128x256_0_256 : ∀ a, (![0, 256] : Fin 2 → Nat) a + S128x256.size a ≤ S128x2048.size a
  inb_S2048x2048_S2048x256_0_512 : ∀ a, (![0, 512] : Fin 2 → Nat) a + S2048x256.size a ≤ S2048x2048.size a
  slices_S6x128x2048_o0_0_512_S6x128x256 : S6x128x2048.Slices ![0, 0, 512] S6x128x256
  inb_S128x2048_S128x256_0_512 : ∀ a, (![0, 512] : Fin 2 → Nat) a + S128x256.size a ≤ S128x2048.size a
  inb_S2048x2048_S2048x256_0_768 : ∀ a, (![0, 768] : Fin 2 → Nat) a + S2048x256.size a ≤ S2048x2048.size a
  slices_S6x128x2048_o0_0_768_S6x128x256 : S6x128x2048.Slices ![0, 0, 768] S6x128x256
  inb_S128x2048_S128x256_0_768 : ∀ a, (![0, 768] : Fin 2 → Nat) a + S128x256.size a ≤ S128x2048.size a
  inb_S2048x2048_S2048x256_0_1024 : ∀ a, (![0, 1024] : Fin 2 → Nat) a + S2048x256.size a ≤ S2048x2048.size a
  slices_S6x128x2048_o0_0_1024_S6x128x256 : S6x128x2048.Slices ![0, 0, 1024] S6x128x256
  inb_S128x2048_S128x256_0_1024 : ∀ a, (![0, 1024] : Fin 2 → Nat) a + S128x256.size a ≤ S128x2048.size a
  inb_S2048x2048_S2048x256_0_1280 : ∀ a, (![0, 1280] : Fin 2 → Nat) a + S2048x256.size a ≤ S2048x2048.size a
  slices_S6x128x2048_o0_0_1280_S6x128x256 : S6x128x2048.Slices ![0, 0, 1280] S6x128x256
  inb_S128x2048_S128x256_0_1280 : ∀ a, (![0, 1280] : Fin 2 → Nat) a + S128x256.size a ≤ S128x2048.size a
  inb_S2048x2048_S2048x256_0_1536 : ∀ a, (![0, 1536] : Fin 2 → Nat) a + S2048x256.size a ≤ S2048x2048.size a
  slices_S6x128x2048_o0_0_1536_S6x128x256 : S6x128x2048.Slices ![0, 0, 1536] S6x128x256
  inb_S128x2048_S128x256_0_1536 : ∀ a, (![0, 1536] : Fin 2 → Nat) a + S128x256.size a ≤ S128x2048.size a
  inb_S2048x2048_S2048x256_0_1792 : ∀ a, (![0, 1792] : Fin 2 → Nat) a + S2048x256.size a ≤ S2048x2048.size a
  slices_S6x128x2048_o0_0_1792_S6x128x256 : S6x128x2048.Slices ![0, 0, 1792] S6x128x256
  inb_S128x2048_S128x256_0_1792 : ∀ a, (![0, 1792] : Fin 2 → Nat) a + S128x256.size a ≤ S128x2048.size a
  dot_S768x2048_S2048x256_S768x256_1_0_0_1_n_n_wf : DotDims.WF S768x2048 S2048x256 S768x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x128x2048.size a ≤ S6x8192x2048.size a
  hwx0_0 : ∀ i : grid0.Coords, EltTy.bits .f32 = 32 ∨ (Rect.block (s := S6x8192x2048) S6x128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S8192x2048.size a
  hwx0_2 : ∀ i : grid0.Coords, EltTy.bits .f32 = 32 ∨ (Rect.block (s := S8192x2048) S128x2048.size (cc0_transform_2 i) (hinb0_2 i)).WholeWords (EltTy.packing .f32)

variable [Facts₀]

def dot_S768x2048_S2048x256_S768x256_1_0_0_1_n_n : DotDims S768x2048 S2048x256 S768x256 where
  lhsContracting := [1]
  rhsContracting := [0]
  lhsNonContracting := [0]
  rhsNonContracting := [1]
  lhsBatch := []
  rhsBatch := []
  wf := dot_S768x2048_S2048x256_S768x256_1_0_0_1_n_n_wf

abbrev win0_0 : Pipeline.Window sig grid0 :=
  Pipeline.Window.ofSpec (Memref.whole main_arg0) S6x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S6x8192x2048 : Shape := ⟨3, ![6, 8192, 2048]⟩
abbrev S2048x2048 : Shape := ⟨2, ![2048, 2048]⟩
abbrev S_ : Shape := ⟨0, ![]⟩
abbrev S8192x2048 : Shape := ⟨2, ![8192, 2048]⟩
abbrev S1x8192x2048 : Shape := ⟨3, ![1, 8192, 2048]⟩
abbrev S6x8192 : Shape := ⟨2, ![6, 8192]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S6x8192x2048, .f32⟩
  | .hbm, ⟨1, _⟩ => ⟨S2048x2048, .f32⟩
  | .hbm, ⟨2, _⟩ => ⟨S6x8192x2048, .f32⟩
  | .hbm, ⟨3, _⟩ => ⟨S6x8192x2048, .f32⟩
  | .hbm, ⟨4, _⟩ => ⟨S_, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S1x8192x2048, .f32⟩
  | .hbm, ⟨10, _⟩ => ⟨S6x8192x2048, .f32⟩
  | .hbm, ⟨11, _⟩ => ⟨S6x8192x2048, .f32⟩
  | .hbm, ⟨12, _⟩ => ⟨S6x8192x2048, .f32⟩
  | .hbm, ⟨13, _⟩ => ⟨S_, .f32⟩
  | .hbm, ⟨14, _⟩ => ⟨S8192x2048, .f32⟩
  | .hbm, ⟨15, _⟩ => ⟨S1x8192x2048, .f32⟩
  | .hbm, ⟨16, _⟩ => ⟨S6x8192x2048, .f32⟩
  | .hbm, ⟨17, _⟩ => ⟨S6x8192x2048, .f32⟩
  | .hbm, ⟨18, _⟩ => ⟨S6x8192x2048, .f32⟩
  | .hbm, ⟨19, _⟩ => ⟨S_, .f32⟩
  | .hbm, ⟨20, _⟩ => ⟨S8192x2048, .f32⟩
  | .hbm, ⟨21, _⟩ => ⟨S_, .f32⟩
  | .hbm, ⟨22, _⟩ => ⟨S6x8192, .f32⟩
  | .hbm, ⟨23, _⟩ => ⟨S_, .f32⟩
  | .hbm, ⟨24, _⟩ => ⟨S6x8192, .f32⟩
  | .hbm, ⟨25, _⟩ => ⟨S6x8192, .i1⟩
  | .hbm, ⟨26, _⟩ => ⟨S6x8192, .i32⟩
  | .hbm, ⟨27, _⟩ => ⟨S_, .i32⟩
  | .hbm, ⟨28, _⟩ => ⟨S8192, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .f32⟩
  | .hbm, ⟨33, _⟩ => ⟨S8192x1, .f32⟩
  | .hbm, ⟨34, _⟩ => ⟨S8192x2048, .f32⟩
  | .hbm, ⟨35, _⟩ => ⟨S8192x2048, .f32⟩
  | _, _ => ⟨S6x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_c_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  reducesTo_S6x8192x2048_S8192x2048_d0 : S6x8192x2048.ReducesTo [0] S8192x2048
  h_S_ : 0 < S_.numel
  bcast_S_S8192x2048 : S_.BroadcastsInDim S8192x2048 (![] : Fin 0 → Fin S8192x2048.rank)
  bcast_S8192x2048_S1x8192x2048_1_2 : S8192x2048.BroadcastsInDim S1x8192x2048 (![1, 2] : Fin 2 → Fin S1x8192x2048.rank)
  bcast_S1x8192x2048_S6x8192x2048_0_1_2 : S1x8192x2048.BroadcastsInDim S6x8192x2048 (![0, 1, 2] : Fin 3 → Fin S6x8192x2048.rank)
  reducesTo_S6x8192x2048_S6x8192_d2 : S6x8192x2048.ReducesTo [2] S6x8192
  bcast_S_S6x8192 : S_.BroadcastsInDim S6x8192 (![] : Fin 0 → Fin S6x8192.rank)
  natLt_1_32 : 1 < 32
  reducesTo_S6x8192_S8192_d0 : S6x8192.ReducesTo [0] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  dot_S6x8192x2048_S2048x2048_S6x8192x2048_2_1_01_0_n_n_wf : DotDims.WF S6x8192x2048 S2048x2048 S6x8192x2048 [2] [1] [0, 1] [0] [] []

variable [Facts₀]

def dot_S6x8192x2048_S2048x2048_S6x8192x2048_2_1_01_0_n_n : DotDims S6x8192x2048 S2048x2048 S6x8192x2048 where
  lhsContracting := [2]
  rhsContracting := [1]
  lhsNonContracting := [0, 1]
  rhsNonContracting := [0]
  lhsBatch := []
  rhsBatch := []
  wf := dot_S6x8192x2048_S2048x2048_S6x8192x2048_2_1_01_0_n_n_wf

class Facts : Prop extends Facts₀ where

variable [Facts]
-- ==== Proof.KernelOps.lean ====
/-
  The kernel body's non-pointwise operations, each read at an index written by coordinates.

  A block of x is [6, 128, 2048] (modality, row of the block, feature); a slab of the transposed weights is [2048, 256]
  (feature d, output column j). The body flattens the block to [768, 2048] (row m·128 + r), multiplies it with the slab
  into [768, 256], and folds that back to [6, 128, 256]: entry (m, r, j) is Σ_d x[m,r,d] · slab[d,j]. Its sums over the
  modalities and over the features are plain finite sums, and its keep-dimension casts and broadcasts only re-index.
-/
import proofs.«141295_j14577119003164_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelValue

open Cert.KernelIdeal Cert.KernelIdeal.Gen
open Idealize.ShloMosaic Idealize.ShloMosaic.ValueIdx

/-- The body's one contraction: [768, 2048] against [2048, 256], contracting the 2048 features. -/
abbrev D := dot_S768x2048_S2048x256_S768x256_1_0_0_1_n_n

theorem lhsD_0 (i : S768x256.Idx) (q : D.contr.Idx) : (D.lhsIdx i q 0).val = (i 0).val := by
  unfold DotDims.lhsIdx
  rw [dif_neg (show ¬(0 : Fin S768x2048.rank) ∈ D.lhsBatch by decide), dif_pos (show (0 : Fin S768x2048.rank) ∈ D.lhsNonContracting by decide)]
  rfl

theorem lhsD_1 (i : S768x256.Idx) (q : D.contr.Idx) : (D.lhsIdx i q 1).val = (q ⟨0, by decide⟩).val :=
  D.lhsIdx_val_of_single rfl i q

theorem rhsD_0 (i : S768x256.Idx) (q : D.contr.Idx) : (D.rhsIdx i q 0).val = (q ⟨0, by decide⟩).val :=
  D.rhsIdx_val_of_single rfl i q

theorem rhsD_1 (i : S768x256.Idx) (q : D.contr.Idx) : (D.rhsIdx i q 1).val = (i 1).val := by
  unfold DotDims.rhsIdx
  rw [dif_neg (show ¬(1 : Fin S2048x256.rank) ∈ D.rhsBatch by decide), dif_pos (show (1 : Fin S2048x256.rank) ∈ D.rhsNonContracting by decide)]
  rfl

/-- The product into a zero accumulator, at (p, j): the sum over the features of left[p,d] · right[d,j]. -/
theorem matmul_at (lhs : FVec Ideal S768x2048 .bf16) (w : FVec Ideal S2048x256 .bf16) (p : Fin 768) (j : Fin 256) :
    matmul D none lhs w (constant S768x256 .f32 0x00000000#32) (ix2 p j) = ∑ d : Fin 2048, lhs (ix2 p d) * w (ix2 d j) := by
  refine (Ideal.matmul_constant_zero_apply D none lhs w (ix2 p j)).trans ?_
  rw [← Equiv.sum_comp (ValueIdx.contrEquiv1 D 2048 rfl rfl).symm]
  refine Finset.sum_congr rfl fun d _ => ?_
  have hk := ValueIdx.contrEquiv1_symm_val D 2048 rfl rfl d
  have el : D.lhsIdx (ix2 p j) ((ValueIdx.contrEquiv1 D 2048 rfl rfl).symm d) = ix2 p d := funext fun a => Fin.ext (by
    match a with
    | ⟨0, _⟩ => exact lhsD_0 _ _
    | ⟨1, _⟩ => exact (lhsD_1 _ _).trans hk)
  have er : D.rhsIdx (ix2 p j) ((ValueIdx.contrEquiv1 D 2048 rfl rfl).symm d) = ix2 d j := funext fun a => Fin.ext (by
    match a with
    | ⟨0, _⟩ => exact (rhsD_0 _ _).trans hk
    | ⟨1, _⟩ => exact rhsD_1 _ _)
  rw [el, er]

/-- Row m·128 + r of the flattened block. -/
abbrev flatRow (m : Fin 6) (r : Fin 128) : Fin 768 := ⟨m.val * 128 + r.val, by have := m.isLt; have := r.isLt; omega⟩

/-- The block flattened to [768, 2048], at (m·128 + r, d), is the block at (m, r, d). -/
theorem flat_at (v : FVec Ideal S6x128x2048 .bf16) (m : Fin 6) (r : Fin 128) (d : Fin 2048) :
    shapeCast S768x2048 v shapeCasts_S6x128x2048_S768x2048 (ix2 (flatRow m r) d) = v (ix3 m r d) :=
  shapeCast_apply v shapeCasts_S6x128x2048_S768x2048 _ _ (by
    rw [Shape.rowMajor_val_three, Shape.rowMajor_val_two]; rfl)

/-- The [768, 256] product folded back to [6, 128, 256], at (m, r, j), is the product at (m·128 + r, j). -/
theorem fold_at (u : FVec Ideal S768x256 .f32) (m : Fin 6) (r : Fin 128) (j : Fin 256) :
    shapeCast S6x128x256 u shapeCasts_S768x256_S6x128x256 (ix3 m r j) = u (ix2 (flatRow m r) j) :=
  shapeCast_apply u shapeCasts_S768x256_S6x128x256 _ _ (by
    rw [Shape.rowMajor_val_three, Shape.rowMajor_val_two]; rfl)

/-- A sum over the six modalities of a [6, 128, 256] array, at (r, j). -/
theorem sum_modalities_at (src : FVec Ideal S6x128x256 .f32) (r : Fin 128) (j : Fin 256) :
    multiReduction .add [0] S128x256 src 0x00000000#32 reduces_S6x128x256_S128x256 (.inl rfl) rfl (ix2 r j)
      = ∑ m : Fin 6, src (ix3 m r j) := by
  refine (Ideal.multiReduction_add_single src 0x00000000#32 reduces_S6x128x256_S128x256 (.inl rfl) rfl (ix2 r j)).trans ?_
  exact Finset.sum_congr rfl fun m _ => congrArg src
    (funext fun a => Fin.ext (by match a with | ⟨0, _⟩ => rfl | ⟨1, _⟩ => rfl | ⟨2, _⟩ => rfl))

/-- The sum over the 2048 features of the block, at (m, r). -/
theorem sum_features_at (v0 : FVec Ideal S6x128x2048 .f32) (m : Fin 6) (r : Fin 128) :
    multiReduction .add [2] S6x128 v0 0x00000000#32 reduces_S6x128x2048_S6x128 (.inl rfl) rfl (ix2 m r)
      = ∑ d : Fin 2048, v0 (ix3 m r d) := by
  refine (Ideal.multiReduction_add_single v0 0x00000000#32 reduces_S6x128x2048_S6x128 (.inl rfl) rfl (ix2 m r)).trans ?_
  exact Finset.sum_congr rfl fun d _ => congrArg v0
    (funext fun a => Fin.ext (by match a with | ⟨0, _⟩ => rfl | ⟨1, _⟩ => rfl | ⟨2, _⟩ => rfl))

/-- A sum over the six modalities of a [6, 128, 1] column, at (r, 0). -/
theorem sum_flags_at (src : FVec Ideal S6x128x1 .f32) (r : Fin 128) (z : Fin 1) :
    multiReduction .add [0] S128x1 src 0x00000000#32 reduces_S6x128x1_S128x1 (.inl rfl) rfl (ix2 r z)
      = ∑ m : Fin 6, src (ix3 m r z) := by
  refine (Ideal.multiReduction_add_single src 0x00000000#32 reduces_S6x128x1_S128x1 (.inl rfl) rfl (ix2 r z)).trans ?_
  exact Finset.sum_congr rfl fun m _ => congrArg src
    (funext fun a => Fin.ext (by match a with | ⟨0, _⟩ => rfl | ⟨1, _⟩ => rfl | ⟨2, _⟩ => rfl))

/-- A [6, 128] array given a trailing unit axis, at (m, r, 0), is the array at (m, r). -/
theorem keep_last_at (u : FVec Ideal S6x128 .f32) (m : Fin 6) (r : Fin 128) (z : Fin 1) :
    shapeCast S6x128x1 u shapeCasts_S6x128_S6x128x1 (ix3 m r z) = u (ix2 m r) :=
  shapeCast_apply u shapeCasts_S6x128_S6x128x1 _ _ (by
    have hz : z.val = 0 := by omega
    rw [Shape.rowMajor_val_three, Shape.rowMajor_val_two]
    show m.val * 128 + r.val = (m.val * 128 + r.val) * 1 + z.val
    omega)

/-- A [128, 256] array given a leading unit axis and broadcast over the six modalities, at (m, r, j), is the array at (r, j). -/
theorem over_modalities_at (u : FVec Ideal S128x256 .f32) (m : Fin 6) (r : Fin 128) (j : Fin 256) :
    broadcastTo S6x128x256 (shapeCast S1x128x256 u shapeCasts_S128x256_S1x128x256) broadcasts_S1x128x256_S6x128x256 (ix3 m r j)
      = u (ix2 r j) := by
  refine (broadcastTo_apply _ broadcasts_S1x128x256_S6x128x256 (ix3 m r j) (ix3 (0 : Fin 1) r j) (fun a => by
    match a with
    | ⟨0, _⟩ => rfl
    | ⟨1, _⟩ => rfl
    | ⟨2, _⟩ => rfl)).trans ?_
  exact shapeCast_ab_1ab_apply u shapeCasts_S128x256_S1x128x256 0 r j

/-- A [128, 1] column broadcast over 256 columns, at (r, j), is the column at (r, 0). -/
theorem over_columns_at (u : FVec Ideal S128x1 .f32) (r : Fin 128) (j : Fin 256) :
    broadcastTo S128x256 u broadcasts_S128x1_S128x256 (ix2 r j) = u (ix2 r (0 : Fin 1)) :=
  broadcastTo_apply u broadcasts_S128x1_S128x256 (ix2 r j) (ix2 r (0 : Fin 1)) (fun a => by
    match a with
    | ⟨0, _⟩ => rfl
    | ⟨1, _⟩ => rfl)

end Cert.KernelValue

end
-- ==== Proof.KernelChunk.lean ====
/-
  What the kernel body computes for one slab of 256 output columns, at a row r of the block and a column j of the slab.

  From the block v (modality m, row r, feature d), a slab w (feature d, column j) of the transposed weights, and the
  matching 256 columns xs of the block: the gate of (m, r, j) is tanh (Σ_d v[m,r,d] · w[d,j]); its weight is
  exp gate / Σ_k exp (gate of k), with no shift; the chunk's entry is (Σ_m xs[m,r,j] · weight) times the row's scale,
  and the scale of row r is one more than the number of modalities whose 2048 features at r sum to zero.
-/
import proofs.«141295_j14577119003164_2_alg».proof.Proof.KernelOps
import Idealize.ShloMosaic.Lib.IdealHost

noncomputable section

namespace Cert.KernelValue

open Cert.KernelIdeal Cert.KernelIdeal.Gen
open Idealize.ShloMosaic Idealize.ShloMosaic.ValueIdx

/-- The six gates of every (row, column) of a slab. -/
def gates (v : FVec Ideal S6x128x2048 .f32) (w : FVec Ideal S2048x256 .bf16) : FVec Ideal S6x128x256 .f32 :=
  tanh (shapeCast S6x128x256 (matmul D none (k0_pay3 (F := Ideal) v) w (constant (F := Ideal) S768x256 .f32 0x00000000#32)) shapeCasts_S768x256_S6x128x256)

/-- Their softmax over the modalities, unshifted. -/
def weights (v : FVec Ideal S6x128x2048 .f32) (w : FVec Ideal S2048x256 .bf16) : FVec Ideal S6x128x256 .f32 :=
  divf (exp (gates v w))
    (broadcastTo S6x128x256 (shapeCast S1x128x256
      (multiReduction (F := Ideal) .add [0] S128x256 (exp (gates v w)) 0x00000000#32 reduces_S6x128x256_S128x256 (.inl rfl) rfl)
      shapeCasts_S128x256_S1x128x256) broadcasts_S1x128x256_S6x128x256)

/-- One slab's 128 × 256 results. -/
def chunk (v : FVec Ideal S6x128x2048 .f32) (w : FVec Ideal S2048x256 .bf16) (xs : FVec Ideal S6x128x256 .f32) : FVec Ideal S128x256 .f32 :=
  mulf (multiReduction (F := Ideal) .add [0] S128x256 (mulf xs (weights v w)) 0x00000000#32 reduces_S6x128x256_S128x256 (.inl rfl) rfl)
    (broadcastTo S128x256 (k0_pay4 (F := Ideal) v) broadcasts_S128x1_S128x256)

theorem gates_at (v : FVec Ideal S6x128x2048 .f32) (w : FVec Ideal S2048x256 .bf16) (m : Fin 6) (r : Fin 128) (j : Fin 256) :
    gates v w (ix3 m r j) = Ideal.tanh (∑ d : Fin 2048, v (ix3 m r d) * w (ix2 d j)) := by
  unfold gates
  show Ideal.tanh (shapeCast S6x128x256 _ shapeCasts_S768x256_S6x128x256 (ix3 m r j)) = _
  refine congrArg Ideal.tanh ?_
  refine (fold_at _ m r j).trans ?_
  refine (matmul_at _ w (flatRow m r) j).trans ?_
  refine Finset.sum_congr rfl fun d _ => ?_
  refine congrArg (· * w (ix2 d j)) ?_
  unfold k0_pay3
  exact flat_at (truncf .bf16 v bitsLt_bf16_f32) m r d

theorem weights_at (v : FVec Ideal S6x128x2048 .f32) (w : FVec Ideal S2048x256 .bf16) (m : Fin 6) (r : Fin 128) (j : Fin 256) :
    weights v w (ix3 m r j)
      = Ideal.div (Ideal.exp (gates v w (ix3 m r j))) (∑ k : Fin 6, Ideal.exp (gates v w (ix3 k r j))) := by
  unfold weights
  show Ideal.div (Ideal.exp (gates v w (ix3 m r j))) (broadcastTo S6x128x256 _ broadcasts_S1x128x256_S6x128x256 (ix3 m r j)) = _
  refine congrArg (Ideal.div _) ?_
  refine (over_modalities_at _ m r j).trans ?_
  exact sum_modalities_at _ r j

/-- The scale of row r: one more than the number of modalities whose features at r sum to zero. -/
theorem scale_at (v : FVec Ideal S6x128x2048 .f32) (r : Fin 128) (z : Fin 1) :
    k0_pay4 (F := Ideal) v (ix2 r z)
      = (∑ m : Fin 6, (((((Ideal.cmp .oeq (∑ d : Fin 2048, v (ix3 m r d)) 0).setWidth 32).toInt : ℝ)) : EReal)) + 1 := by
  unfold k0_pay4
  show (multiReduction (F := Ideal) .add [0] S128x1 _ 0x00000000#32 reduces_S6x128x1_S128x1 (.inl rfl) rfl (ix2 r z))
      + Ideal.ofBits .f32 0x3F800000#32 = _
  rw [Ideal.ofBits_one_f32]
  refine congrArg (· + 1) ?_
  refine (sum_flags_at _ r z).trans ?_
  refine Finset.sum_congr rfl fun m _ => ?_
  have e1 : shapeCast S6x128x1 (multiReduction (F := Ideal) .add [2] S6x128 v 0x00000000#32 reduces_S6x128x2048_S6x128 (.inl rfl) rfl)
      shapeCasts_S6x128_S6x128x1 (ix3 m r z) = ∑ d : Fin 2048, v (ix3 m r d) :=
    (keep_last_at _ m r z).trans (sum_features_at v m r)
  show (((((Ideal.cmp .oeq (shapeCast S6x128x1 _ shapeCasts_S6x128_S6x128x1 (ix3 m r z)) (Ideal.ofBits .f32 0x00000000#32)).setWidth 32).toInt : ℝ)) : EReal) = _
  rw [e1, Ideal.ofBits_zero_f32]

/-- One slab's result at (r, j), by coordinates. -/
theorem chunk_at (v : FVec Ideal S6x128x2048 .f32) (w : FVec Ideal S2048x256 .bf16) (xs : FVec Ideal S6x128x256 .f32)
    (r : Fin 128) (j : Fin 256) :
    chunk v w xs (ix2 r j)
      = (∑ m : Fin 6, xs (ix3 m r j)
            * Ideal.div (Ideal.exp (Ideal.tanh (∑ d : Fin 2048, v (ix3 m r d) * w (ix2 d j))))
                (∑ k : Fin 6, Ideal.exp (Ideal.tanh (∑ d : Fin 2048, v (ix3 k r d) * w (ix2 d j)))))
          * ((∑ m : Fin 6, (((((Ideal.cmp .oeq (∑ d : Fin 2048, v (ix3 m r d)) 0).setWidth 32).toInt : ℝ)) : EReal)) + 1) := by
  unfold chunk
  show (multiReduction (F := Ideal) .add [0] S128x256 _ 0x00000000#32 reduces_S6x128x256_S128x256 (.inl rfl) rfl (ix2 r j))
      * (broadcastTo S128x256 (k0_pay4 (F := Ideal) v) broadcasts_S128x1_S128x256 (ix2 r j)) = _
  refine congrArg₂ (· * ·) ((sum_modalities_at _ r j).trans ?_) ((over_columns_at _ r j).trans (scale_at v r 0))
  refine Finset.sum_congr rfl fun m _ => ?_
  show xs (ix3 m r j) * weights v w (ix3 m r j) = _
  rw [weights_at]
  simp only [gates_at]

end Cert.KernelValue

end
-- ==== Proof.KernelBlock.lean ====
/-
  What the kernel body leaves in its output block, as one function of the input blocks.

  The body writes the 128 × 2048 output block in eight tiles of 256 columns. The tile at column offset o is the chunk of
  the x block, of the slab of the transposed weights at columns o … o+255, and of the x block's own columns
  o … o+255. So at row r and column c of the block, whatever tile c falls in, the entry is
    (Σ_m x[m,r,c] · exp g_m / Σ_k exp g_k) · scale r,   g_m = tanh (Σ_d x[m,r,d] · wt[d,c]),
  and the tiles cover the block.
-/
import proofs.«141295_j14577119003164_2_alg».proof.Proof.KernelChunk

set_option maxRecDepth 16384

noncomputable section

namespace Cert.KernelValue

open Cert.KernelIdeal Cert.KernelIdeal.Gen
open Idealize.ShloMosaic Idealize.ShloMosaic.ValueIdx

/-- The output block's entry at row r and column c, from the x block and the whole transposed weight matrix. -/
def blockAt (x0 : FVec Ideal S6x128x2048 .f32) (x1 : FVec Ideal S2048x2048 .bf16) (r : Fin 128) (c : Fin 2048) : EReal :=
  (∑ m : Fin 6, x0 (ix3 m r c)
      * Ideal.div (Ideal.exp (Ideal.tanh (∑ d : Fin 2048, x0 (ix3 m r d) * x1 (ix2 d c))))
          (∑ k : Fin 6, Ideal.exp (Ideal.tanh (∑ d : Fin 2048, x0 (ix3 k r d) * x1 (ix2 d c)))))
    * ((∑ m : Fin 6, (((((Ideal.cmp .oeq (∑ d : Fin 2048, x0 (ix3 m r d)) 0).setWidth 32).toInt : ℝ)) : EReal)) + 1)

/-- The output block as a function of its index. -/
def blockVal (x0 : FVec Ideal S6x128x2048 .f32) (x1 : FVec Ideal S2048x2048 .bf16) : Vec Ideal S128x2048 .f32 :=
  fun y => blockAt x0 x1 (y 0) (y 1)

/-- THE TILE AT COLUMN OFFSET o: the chunk of the slab and of the x columns at o, at a tile index, is the block function
    at the index the tile's rectangle places it. -/
theorem tile_at (x0 : Vec Ideal S6x128x2048 .f32) (x1 : Vec Ideal S2048x2048 .bf16) (o : Nat)
    (inbW : ∀ a, (![0, o] : Fin S2048x2048.rank → Nat) a + S2048x256.size a ≤ S2048x2048.size a)
    (inbO : ∀ a, (![0, o] : Fin S128x2048.rank → Nat) a + S128x256.size a ≤ S128x2048.size a)
    (hs : S6x128x2048.Slices ![0, 0, o] S6x128x256)
    (y : S128x256.Idx) :
    chunk x0 (shapeCast S2048x256 (View.ld (Val := Elt Ideal) x1 (Rect.unit (s := S2048x2048) ![0, o] S2048x256.size inbW) : Vec Ideal S2048x256 .bf16) shapeCasts_S2048x256_S2048x256)
        (extractStridedSlice S6x128x256 ![0, 0, o] x0 hs) y
      = blockVal x0 x1 ((Rect.unit (s := S128x2048) ![0, o] S128x256.size inbO).emb y) := by
  obtain ⟨r, j, rfl⟩ : ∃ (r : Fin 128) (j : Fin 256), y = ix2 r j := ⟨y 0, y 1, eq_ix2 y⟩
  have hb : o + 256 ≤ 2048 := inbO 1
  have hlt : o + j.val < 2048 := by have := j.isLt; omega
  have he : (Rect.unit (s := S128x2048) ![0, o] S128x256.size inbO).emb (ix2 r j) = ix2 r (⟨o + j.val, hlt⟩ : Fin 2048) :=
    funext fun a => Fin.ext (by
      match a with
      | ⟨0, _⟩ => show 0 + 1 * r.val = r.val; omega
      | ⟨1, _⟩ => show o + 1 * j.val = o + j.val; omega)
  have hx : ∀ m : Fin 6, extractStridedSlice S6x128x256 ![0, 0, o] x0 hs (ix3 m r j) = x0 (ix3 m r (⟨o + j.val, hlt⟩ : Fin 2048)) :=
    fun m => extractStridedSlice_apply _ x0 hs _ _ (fun a => by
      match a with
      | ⟨0, _⟩ => show m.val = 0 + m.val; omega
      | ⟨1, _⟩ => show r.val = 0 + r.val; omega
      | ⟨2, _⟩ => rfl)
  have hw : ∀ d : Fin 2048,
      shapeCast S2048x256 (View.ld (Val := Elt Ideal) x1 (Rect.unit (s := S2048x2048) ![0, o] S2048x256.size inbW) : Vec Ideal S2048x256 .bf16) shapeCasts_S2048x256_S2048x256 (ix2 d j)
        = x1 (ix2 d (⟨o + j.val, hlt⟩ : Fin 2048)) := fun d => by
    refine (shapeCast_apply (s := S2048x256) (t := S2048x256)
      (View.ld (Val := Elt Ideal) x1 (Rect.unit (s := S2048x2048) ![0, o] S2048x256.size inbW) : Vec Ideal S2048x256 .bf16)
      shapeCasts_S2048x256_S2048x256 (ix2 d j) (ix2 d j) rfl).trans ?_
    show x1 ((Rect.unit (s := S2048x2048) ![0, o] S2048x256.size inbW).emb (ix2 d j)) = _
    exact congrArg x1 (funext fun a => Fin.ext (by
      match a with
      | ⟨0, _⟩ => show 0 + 1 * d.val = d.val; omega
      | ⟨1, _⟩ => show o + 1 * j.val = o + j.val; omega))
  rw [chunk_at, he]
  simp only [hx, hw]
  rfl

/-- THE BLOCK: the canon of the body's eight stores is the block function. -/
theorem body_eq (x0 : Vec Ideal S6x128x2048 .f32) (x1 : Vec Ideal S2048x2048 .bf16) :
    out0_2 (F := Ideal) x0 x1 = blockVal x0 x1 := by
  have hz : (![0, 0, 0] : Fin S6x128x2048.rank → Nat) = fun _ => 0 :=
    funext fun a => by match a with | ⟨0, _⟩ => rfl | ⟨1, _⟩ => rfl | ⟨2, _⟩ => rfl
  funext y
  unfold out0_2
  simp only [View.ld_unit_zero (S := S6x128x2048) hz]
  refine View.canon_apply_of_pieces (Val := Elt Ideal) (blockVal x0 x1) _ ?_ y (cover0_2 _ _ _ _ _ _ _ _ y)
  intro p hp x
  simp only [List.mem_cons, List.mem_singleton, List.not_mem_nil, or_false] at hp
  rcases hp with rfl | rfl | rfl | rfl | rfl | rfl | rfl | rfl
  · exact tile_at x0 x1 1792 inb_S2048x2048_S2048x256_0_1792 inb_S128x2048_S128x256_0_1792 slices_S6x128x2048_o0_0_1792_S6x128x256 x
  · exact tile_at x0 x1 1536 inb_S2048x2048_S2048x256_0_1536 inb_S128x2048_S128x256_0_1536 slices_S6x128x2048_o0_0_1536_S6x128x256 x
  · exact tile_at x0 x1 1280 inb_S2048x2048_S2048x256_0_1280 inb_S128x2048_S128x256_0_1280 slices_S6x128x2048_o0_0_1280_S6x128x256 x
  · exact tile_at x0 x1 1024 inb_S2048x2048_S2048x256_0_1024 inb_S128x2048_S128x256_0_1024 slices_S6x128x2048_o0_0_1024_S6x128x256 x
  · exact tile_at x0 x1 768 inb_S2048x2048_S2048x256_0_768 inb_S128x2048_S128x256_0_768 slices_S6x128x2048_o0_0_768_S6x128x256 x
  · exact tile_at x0 x1 512 inb_S2048x2048_S2048x256_0_512 inb_S128x2048_S128x256_0_512 slices_S6x128x2048_o0_0_512_S6x128x256 x
  · exact tile_at x0 x1 256 inb_S2048x2048_S2048x256_0_256 inb_S128x2048_S128x256_0_256 slices_S6x128x2048_o0_0_256_S6x128x256 x
  · exact tile_at x0 x1 0 inb_S2048x2048_S2048x256_0_0 inb_S128x2048_S128x256_0_0 slices_S6x128x2048_o0_0_0_S6x128x256 x

end Cert.KernelValue

end
-- ==== Proof.Spec.lean ====
/-
  The function both programs compute, index by index, on the extended reals.

  x has shape [6, 8192, 2048] (modality m, batch row b, feature d) and W has shape [2048, 2048] (output feature e, input
  feature d). For a batch row b and an output feature e:
    score m b e = tanh (Σ_d x[m,b,d] · W[e,d])                                  the gate of modality m
    weight m b e = exp (score m b e) / Σ_k exp (score k b e)                     its softmax over the six modalities
    rowScale b   = (number of modalities m with Σ_d x[m,b,d] = 0) + 1            the rescaling for missing modalities
    G b e        = (Σ_m x[m,b,e] · weight m b e) · rowScale b.
  The flag of a vanishing row sum is written as the programs form it: the one-bit comparison widened to 32 bits and
  converted to a real, which is 1 when the sum is zero and 0 otherwise.
-/
import Idealize.ShloMosaic.PureOps.Ideal
import Idealize.ShloMosaic.Lib.ValueIdx

noncomputable section

namespace Cert.Spec

open Idealize.ShloMosaic Idealize.ShloMosaic.ValueIdx

/-- The gate of modality `m` at batch row `b` and output feature `e`. -/
def score (x : (⟨3, ![6, 8192, 2048]⟩ : Shape).Idx → EReal) (W : (⟨2, ![2048, 2048]⟩ : Shape).Idx → EReal)
    (m : Fin 6) (b : Fin 8192) (e : Fin 2048) : EReal :=
  Ideal.tanh (∑ d : Fin 2048, x (ix3 m b d) * W (ix2 e d))

/-- The softmax weight of modality `m` among the six, without any shift. -/
def weight (x : (⟨3, ![6, 8192, 2048]⟩ : Shape).Idx → EReal) (W : (⟨2, ![2048, 2048]⟩ : Shape).Idx → EReal)
    (m : Fin 6) (b : Fin 8192) (e : Fin 2048) : EReal :=
  Ideal.div (Ideal.exp (score x W m b e)) (∑ k : Fin 6, Ideal.exp (score x W k b e))

/-- The 0/1 flag, as a real, of modality `m`'s features at row `b` summing to exactly zero. -/
def zeroFlag (x : (⟨3, ![6, 8192, 2048]⟩ : Shape).Idx → EReal) (m : Fin 6) (b : Fin 8192) : EReal :=
  (((((Ideal.cmp .oeq (∑ d : Fin 2048, x (ix3 m b d)) 0).setWidth 32).toInt : ℝ)) : EReal)

/-- One more than the number of modalities whose features at row `b` sum to zero. -/
def rowScale (x : (⟨3, ![6, 8192, 2048]⟩ : Shape).Idx → EReal) (b : Fin 8192) : EReal :=
  (∑ m : Fin 6, zeroFlag x m b) + 1

/-- The result array as one function of the argument arrays. -/
def G (x : (⟨3, ![6, 8192, 2048]⟩ : Shape).Idx → EReal) (W : (⟨2, ![2048, 2048]⟩ : Shape).Idx → EReal) :
    (⟨2, ![8192, 2048]⟩ : Shape).Idx → EReal := fun i =>
  (∑ m : Fin 6, x (ix3 m (i 0) (i 1)) * weight x W m (i 0) (i 1)) * rowScale x (i 0)

end Cert.Spec

end
-- ==== Proof.KernelArray.lean ====
/-
  From the kernel's blocks to its whole result array.

  Grid point t (of 64) stages rows 128·t … 128·t + 127 of x (all six modalities, all 2048 features) and the whole of the
  transposed, format-changed weight matrix, which at (d, e) is W[e, d]; it writes back rows 128·t … 128·t + 127 of the
  result. The block function of those two blocks, at row r and column c, is therefore the specification's G at
  (128·t + r, c). The 64 row blocks cover all 8192 rows, so after the run the result array is G of the two arguments.
-/
import proofs.«141295_j14577119003164_2_alg».proof.Proof.Gen.KernelIdeal.Value
import proofs.«141295_j14577119003164_2_alg».proof.Proof.KernelBlock
import proofs.«141295_j14577119003164_2_alg».proof.Proof.Spec
import Idealize.ShloMosaic.Lib.StableHlo.Run

set_option maxRecDepth 16384

noncomputable section

namespace Cert.KernelValue

open Cert.KernelIdeal Cert.KernelIdeal.Gen Cert.KernelIdeal.Value
open Idealize.ShloMosaic Idealize.ShloMosaic.ValueIdx Idealize.ShloMosaic.TcCoe Idealize.SL.Sem
open Idealize.ShloMosaic.Pipeline (Dat)

/-- A block function over blocks that are rows q·128 … of X and the transpose of W is G at the shifted row. -/
theorem block_is_G (X : (⟨3, ![6, 8192, 2048]⟩ : Shape).Idx → EReal) (W : (⟨2, ![2048, 2048]⟩ : Shape).Idx → EReal)
    (x0 : FVec Ideal S6x128x2048 .f32) (x1 : FVec Ideal S2048x2048 .bf16) (q : Nat) (hq : q ≤ 63)
    (row : Fin 128 → Fin 8192) (hrow : ∀ r, (row r).val = q * 128 + r.val)
    (hx0 : ∀ (k : Fin 6) (r : Fin 128) (d : Fin 2048), x0 (ix3 k r d) = X (ix3 k (row r) d))
    (hx1 : ∀ d e : Fin 2048, x1 (ix2 d e) = W (ix2 e d))
    (r : Fin 128) (cc : Fin 2048) :
    blockAt x0 x1 r cc = Cert.Spec.G X W (ix2 (row r) cc) := by
  unfold blockAt Cert.Spec.G Cert.Spec.weight Cert.Spec.score Cert.Spec.rowScale Cert.Spec.zeroFlag
  simp only [hx0, hx1]

variable (m : (ℓ : Loc nD τ sig) → Buf (Elt Ideal) ℓ) (ρ : Dev nD → PrngReg)

/-- The array the second window stages is W transposed; the change of float format is the identity on the extended reals. -/
theorem wt_eq (c : Dev nD) :
    @Eq (S2048x2048.Idx → EReal) (V m c main_v1)
      (truncf (F := Ideal) .bf16 (transpose S2048x2048 [1, 0] (m ((c : Thread nD τ).loc main_arg1)) transposes_S2048x2048_S2048x2048_1_0) bitsLt_bf16_f32) := by
  dsimp only [Gen.V, Gen.hostOps0]; after_results

theorem wt_at (c : Dev nD) (d e : Fin 2048) :
    V m c main_v1 (ix2 d e) = m ((c : Thread nD τ).loc main_arg1) (ix2 e d) :=
  (congrFun (wt_eq m c) (ix2 d e)).trans
    (transpose_ix2_apply (m ((c : Thread nD τ).loc main_arg1)) transposes_S2048x2048_S2048x2048_1_0 d e)

/-- The printed index maps, decided over the 64 grid points: the x window moves along its row axis with the output
    window and stays at block 0 elsewhere; the weight window never moves. -/
theorem idx_facts : ∀ t : Fin cfg0.N, win0_0.index t (0 : Fin 3) = 0
    ∧ win0_0.index t (1 : Fin 3) = win0_2.index t (0 : Fin 2)
    ∧ win0_0.index t (2 : Fin 3) = 0
    ∧ win0_1.index t (0 : Fin 2) = 0
    ∧ win0_1.index t (1 : Fin 2) = 0
    ∧ win0_2.index t (1 : Fin 2) = 0
    ∧ win0_2.index t (0 : Fin 2) ≤ 63 :=
  (by decide +kernel : ∀ t : Fin grid0.N, _)

/-- Every one of the 64 row blocks is some point's. -/
theorem idx_onto : ∀ q : Fin 64, ∃ t : Fin cfg0.N, win0_2.index t = ![q.val, 0] :=
  (by decide +kernel : ∀ q : Fin 64, ∃ t : Fin grid0.N, win0_2.index t = ![q.val, 0])

/-- WHAT POINT t WRITES BACK is block t of G of the two argument arrays. -/
theorem flushed_eq (c : Dev nD) (t : Fin cfg0.N) :
    (dats m 0 c).flushed 2 t
      = ((cfg0.win 2).blk t).view.read (Elt Ideal)
          (Cert.Spec.G (m ((c : Thread nD τ).loc main_arg0)) (m ((c : Thread nD τ).loc main_arg1))) := by
  rw [flushed2]
  obtain ⟨e0, e1, e2, e3, e4, e5, e6⟩ := idx_facts t
  funext j
  obtain ⟨r, cc, rfl⟩ : ∃ (r : Fin 128) (cc : Fin 2048), j = ix2 r cc := ⟨j 0, j 1, eq_ix2 j⟩
  have hr := r.isLt
  let row : Fin 128 → Fin 8192 := fun r' => ⟨win0_2.index t (0 : Fin 2) * 128 + r'.val, by have := r'.isLt; omega⟩
  show out0_2 (F := Ideal) (iblk m c 0 t) (iblk m c 1 t) (ix2 r cc)
      = Cert.Spec.G (m ((c : Thread nD τ).loc main_arg0)) (m ((c : Thread nD τ).loc main_arg1)) (((cfg0.win 2).blk t).view.emb (ix2 r cc))
  have hemb : ((cfg0.win 2).blk t).view.emb (ix2 r cc) = ix2 (row r) cc := by
    funext a; apply Fin.ext
    match a with
    | ⟨0, _⟩ => show win0_2.index t (0 : Fin 2) * 128 + 1 * r.val = win0_2.index t (0 : Fin 2) * 128 + r.val; omega
    | ⟨1, _⟩ => show win0_2.index t (1 : Fin 2) * 2048 + 1 * cc.val = cc.val; omega
  rw [hemb, congrFun (body_eq (iblk m c 0 t) (iblk m c 1 t)) (ix2 r cc)]
  refine block_is_G _ _ (iblk m c 0 t) (iblk m c 1 t) (win0_2.index t (0 : Fin 2)) e6 row (fun _ => rfl) ?_ ?_ r cc
  · intro k r' d
    have hr' := r'.isLt
    show V m c main_arg0 (((cfg0.win 0).blk t).view.emb (ix3 k r' d)) = m ((c : Thread nD τ).loc main_arg0) (ix3 k (row r') d)
    rw [V_main_arg0]
    refine congrArg (m ((c : Thread nD τ).loc main_arg0)) ?_
    funext a; apply Fin.ext
    match a with
    | ⟨0, _⟩ => show win0_0.index t (0 : Fin 3) * 6 + 1 * k.val = k.val; omega
    | ⟨1, _⟩ => show win0_0.index t (1 : Fin 3) * 128 + 1 * r'.val = win0_2.index t (0 : Fin 2) * 128 + r'.val; omega
    | ⟨2, _⟩ => show win0_0.index t (2 : Fin 3) * 2048 + 1 * d.val = d.val; omega
  · intro d e
    show V m c main_v1 (((cfg0.win 1).blk t).view.emb (ix2 d e)) = m ((c : Thread nD τ).loc main_arg1) (ix2 e d)
    rw [← wt_at m c d e]
    refine congrArg (V m c main_v1) ?_
    funext a; apply Fin.ext
    match a with
    | ⟨0, _⟩ => show win0_1.index t (0 : Fin 2) * 2048 + 1 * d.val = d.val; omega
    | ⟨1, _⟩ => show win0_1.index t (1 : Fin 2) * 2048 + 1 * e.val = e.val; omega

/-- An index of the result array is in point t's block iff each coordinate is in the block's range on its axis. -/
theorem mem_blk (t : Fin cfg0.N) (i : S8192x2048.Idx) :
    i ∈ ((cfg0.win 2).blk t).view.set ↔ ∀ a : Fin 2, win0_2.index t a * S128x2048.size a ≤ (i a).val
      ∧ (i a).val < win0_2.index t a * S128x2048.size a + S128x2048.size a := by
  show i ∈ ((View.whole main_v2).slice (win0_2.rect t)).set ↔ _
  rw [View.set_slice_whole, Rect.mem_set_unit]
  exact Iff.rfl

/-- THE COVER: every index of the result array is in some point's block (the point of row block ⌊row / 128⌋). -/
theorem cover (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ := idx_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 2048 ≤ (i 1).val ∧ (i 1).val < win0_2.index t (1 : Fin 2) * 2048 + 2048; omega

/-- THE ARRAY after the run is G of the two argument arrays. -/
theorem final (c : Dev nD) :
    (dats m 0 c).arrAt 2 cfg0.N
      = Cert.Spec.G (m ((c : Thread nD τ).loc main_arg0)) (m ((c : Thread nD τ).loc main_arg1)) :=
  (dats m 0 c).arrAt_eq_of_cover 2 _ (fun t _ => flushed_eq m c t) cover

/-- THE RUN: every weakly fair execution ends with the result array at G of the arguments, the arguments unchanged. -/
theorem run : θ_run defs (onTc (τ := τ) (main (F := Ideal))) ⟨m, fun _ => 0, ρ⟩ fun r => ∀ c : Dev nD,
      r.2.mem ((c : Thread nD τ).loc main_v2)
        = Cert.Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelValue

end
-- ==== Proof.ScoreLaws.lean ====
/-
  The extended-real mathematics that joins the two programs, free of either program's text.

  Both programs form, for each batch row and output feature, the six scores s_m = tanh (Σ_d x[m,b,d] · W[e,d]), one per
  modality m, and weigh x[m,b,e] by the softmax of the scores over m. One program shifts the scores by their maximum before
  exponentiating, the other does not. Three facts make the two weights equal as extended reals:
    * tanh of ANY extended real is a real number (it is −1 at −∞ and 1 at +∞), so the scores are real whatever the inputs;
    * the maximum of finitely many reals, taken from −∞, is a real;
    * for real scores and a real shift c, exp (s_m − c) / Σ_k exp (s_k − c) = exp s_m / Σ_k exp s_k, because exp (−c) is a
      nonzero real factor of numerator and denominator.
  The row scale counts the modalities whose features sum to exactly zero and adds one. One program counts in 32-bit
  integers and converts the total, the other converts each 0/1 flag and adds reals: the total is at most 7, so the
  integer sum does not wrap and both are the same real.
-/
import Idealize.ShloMosaic.PureOps.Ideal
import Idealize.ShloMosaic.PureOps.Ideal.Laws
import Idealize.ShloMosaic.PureOps.Reduce
import Idealize.ShloMosaic.Lib.IdealHost

noncomputable section

namespace Cert.ScoreLaws

open Idealize.ShloMosaic

/-- The f32 pattern of negative infinity denotes −∞. -/
theorem ofBits_neg_inf_f32 : Ideal.ofBits .f32 0xFF800000#32 = ⊥ := by simp [Ideal.ofBits, Ideal.ieee]

/-- The hyperbolic tangent of any extended real is a real number: −1 at −∞, 1 at +∞, tanh r at a real r. -/
theorem tanh_real (x : EReal) : ∃ r : ℝ, Ideal.tanh x = (r : EReal) := by
  induction x using EReal.rec with
  | bot => exact ⟨-1, by show (-1 : EReal) = ((-1 : ℝ) : EReal); rw [EReal.coe_neg, EReal.coe_one]⟩
  | coe r => exact ⟨Real.tanh r, rfl⟩
  | top => exact ⟨1, by show (1 : EReal) = ((1 : ℝ) : EReal); norm_cast⟩

/-- The exponential of a real is the real exponential. -/
theorem exp_coe (r : ℝ) : Ideal.exp (r : EReal) = ((Real.exp r : ℝ) : EReal) := rfl

/-- A finite sum of reals, taken in the extended reals, is the real sum. -/
theorem coe_sum {ι : Type*} (t : Finset ι) (f : ι → ℝ) : (∑ k ∈ t, (f k : EReal)) = ((∑ k ∈ t, f k : ℝ) : EReal) := by
  classical
  refine Finset.induction_on t (by simp) ?_
  intro a t ha ih
  rw [Finset.sum_insert ha, Finset.sum_insert ha, ih, EReal.coe_add]

/-- SHIFT INVARIANCE of the softmax over real scores, on the extended reals: a real shift c cancels. -/
theorem softmax_shift {ι : Type*} [Fintype ι] [Nonempty ι] (s : ι → ℝ) (c : ℝ) (m : ι) :
    Ideal.div (Ideal.exp ((s m : EReal) - (c : EReal))) (∑ k, Ideal.exp ((s k : EReal) - (c : EReal)))
      = Ideal.div (Ideal.exp (s m : EReal)) (∑ k, Ideal.exp (s k : EReal)) := by
  have hpos : ∀ g : ι → ℝ, (∑ k, Real.exp (g k)) ≠ 0 := fun g =>
    (Finset.sum_pos (fun k _ => Real.exp_pos (g k)) Finset.univ_nonempty).ne'
  simp only [← EReal.coe_sub, exp_coe, coe_sum]
  rw [Ideal.div_coe (hpos fun k => s k - c), Ideal.div_coe (hpos s), ← EReal.coe_mul, ← EReal.coe_mul]
  congr 1
  have hsum : ∑ k, Real.exp (s k - c) = (∑ k, Real.exp (s k)) * Real.exp (-c) := by
    rw [Finset.sum_mul]
    exact Finset.sum_congr rfl fun k _ => by rw [sub_eq_add_neg, Real.exp_add]
  rw [hsum, sub_eq_add_neg, Real.exp_add]
  have h1 := hpos s
  have h2 : Real.exp (-c) ≠ 0 := (Real.exp_pos _).ne'
  field_simp

/-- The maximum of finitely many reals (at least one), folded from −∞ and then taken once more against −∞, is a real. -/
theorem max_real {n : ℕ} (s : Fin (n + 1) → ℝ) :
    ∃ c : ℝ, max (⊥ : EReal) ((Finset.univ : Finset (Fin (n + 1))).fold max (⊥ : EReal) (fun k => (s k : EReal))) = (c : EReal) := by
  set M := (Finset.univ : Finset (Fin (n + 1))).fold max (⊥ : EReal) (fun k => (s k : EReal)) with hM
  have hle : M ≤ ((∑ k, |s k| : ℝ) : EReal) := by
    rw [hM, Finset.fold_max_le]
    exact ⟨bot_le, fun k _ => EReal.coe_le_coe_iff.2
      ((le_abs_self (s k)).trans (Finset.single_le_sum (f := fun k => |s k|) (fun i _ => abs_nonneg (s i)) (Finset.mem_univ k)))⟩
  have hge : ((s 0 : ℝ) : EReal) ≤ M := by
    rw [hM, Finset.le_fold_max]
    exact Or.inr ⟨0, Finset.mem_univ _, le_rfl⟩
  have htop : M ≠ ⊤ := ne_top_of_le_ne_top (EReal.coe_ne_top _) hle
  have hbot : M ≠ ⊥ := ne_bot_of_le_ne_bot (EReal.coe_ne_bot _) hge
  exact ⟨M.toReal, by rw [max_eq_right bot_le, EReal.coe_toReal htop hbot]⟩

/-- The same for exactly six reals. -/
theorem max_real_six (s : Fin 6 → ℝ) :
    ∃ c : ℝ, max (⊥ : EReal) ((Finset.univ : Finset (Fin 6)).fold max (⊥ : EReal) (fun k => (s k : EReal))) = (c : EReal) :=
  max_real (n := 5) s

/-- A one-bit word is 0 or 1. -/
theorem bit_cases (b : BitVec 1) : b = 0#1 ∨ b = 1#1 := by
  revert b; decide

/-- The 32-bit sum of at most six words, each 0 or 1, is their sum as natural numbers: nothing wraps. -/
theorem fold_addi_toNat {ι : Type*} [DecidableEq ι] (f : ι → BitVec 32) (hf : ∀ k, (f k).toNat ≤ 1) (t : Finset ι) :
    t.card ≤ 6 → (t.fold IntOp.addi 0#32 f).toNat = ∑ k ∈ t, (f k).toNat := by
  refine Finset.induction_on t (fun _ => by simp) ?_
  intro a t ha ih hc
  rw [Finset.card_insert_of_notMem ha] at hc
  have iht := ih (by omega)
  have hle : ∑ k ∈ t, (f k).toNat ≤ t.card := by
    calc ∑ k ∈ t, (f k).toNat ≤ ∑ _k ∈ t, 1 := Finset.sum_le_sum fun k _ => hf k
      _ = t.card := by simp
  rw [Finset.fold_insert ha, Finset.sum_insert ha]
  show (f a + t.fold IntOp.addi 0#32 f).toNat = _
  rw [BitVec.toNat_add, iht]
  have := hf a
  exact Nat.mod_eq_of_lt (by norm_num; omega)

/-- COUNTING six 0/1 flags: the 32-bit sum of the widened flags plus one, converted to a real, is the sum of the
    converted flags plus one — the total is at most 7, far from wrapping. -/
theorem count_law (b : Fin 6 → BitVec 1) :
    ((((IntOp.addi ((Finset.univ : Finset (Fin 6)).fold IntOp.addi 0#32 (fun k => (b k).setWidth 32)) 1#32).toInt : ℝ)) : EReal)
      = (∑ k : Fin 6, ((((b k).setWidth 32).toInt : ℝ) : EReal)) + 1 := by
  have hf1 : ∀ k, ((b k).setWidth 32).toNat ≤ 1 := fun k => by
    rcases bit_cases (b k) with h | h <;> rw [h] <;> decide
  have hfi : ∀ k, ((b k).setWidth 32).toInt = (((b k).setWidth 32).toNat : ℤ) := fun k => by
    rcases bit_cases (b k) with h | h <;> rw [h] <;> decide
  have hN := fold_addi_toNat (fun k => (b k).setWidth 32) hf1 (Finset.univ : Finset (Fin 6)) (by simp)
  have hNle : ∑ k : Fin 6, ((b k).setWidth 32).toNat ≤ 6 := by
    calc ∑ k : Fin 6, ((b k).setWidth 32).toNat ≤ ∑ _k : Fin 6, 1 := Finset.sum_le_sum fun k _ => hf1 k
      _ = 6 := by simp
  have hT : (IntOp.addi ((Finset.univ : Finset (Fin 6)).fold IntOp.addi 0#32 (fun k => (b k).setWidth 32)) 1#32).toNat
      = ∑ k : Fin 6, ((b k).setWidth 32).toNat + 1 := by
    show (_ + 1#32).toNat = _
    rw [BitVec.toNat_add, hN]
    generalize (∑ k : Fin 6, ((b k).setWidth 32).toNat) = N at hNle ⊢
    show (N + 1) % 4294967296 = N + 1
    omega
  have hTi : (IntOp.addi ((Finset.univ : Finset (Fin 6)).fold IntOp.addi 0#32 (fun k => (b k).setWidth 32)) 1#32).toInt
      = ((∑ k : Fin 6, ((b k).setWidth 32).toNat + 1 : ℕ) : ℤ) := by
    rw [BitVec.toInt_eq_toNat_cond, hT]
    generalize (∑ k : Fin 6, ((b k).setWidth 32).toNat) = N at hNle ⊢
    rw [if_pos (by show 2 * (N + 1) < 4294967296; omega)]
  rw [hTi, coe_sum, show (1 : EReal) = ((1 : ℝ) : EReal) by norm_cast, ← EReal.coe_add]
  congr 1
  simp only [hfi]
  push_cast
  rfl

end Cert.ScoreLaws

end
-- ==== Proof.RefWeight.lean ====
/-
  The reference's softmax weight, read at an index, is the unshifted weight of the specification.

  Reading the reference one stage at a time at (m, b, e): its contraction is Σ_d x[m,b,d] · W[e,d], so its gate is the
  specification's score; the number it subtracts from the six scores of (b, e) is their maximum taken from −∞, a real
  because every score is a real; so its weight exp (s_m − c) / (0 + Σ_k exp (s_k − c)) is exp s_m / Σ_k exp s_k by the
  shift invariance of the softmax.
-/
import proofs.«141295_j14577119003164_2_alg».proof.Proof.Gen.ReferenceIdeal.Read
import proofs.«141295_j14577119003164_2_alg».proof.Proof.ScoreLaws
import proofs.«141295_j14577119003164_2_alg».proof.Proof.Spec

noncomputable section

namespace Cert.RefValue

open Cert.ReferenceIdeal Cert.ReferenceIdeal.Gen Cert.ReferenceIdeal.Read
open Idealize.ShloMosaic Idealize.ShloMosaic.ValueIdx Idealize.ShloMosaic.TcCoe Idealize.ShloMosaic.StableHlo

variable (x0 : (⟨S6x8192x2048, .f32⟩ : BufTy).Contents (Elt Ideal)) (x1 : (⟨S2048x2048, .f32⟩ : BufTy).Contents (Elt Ideal))

/-- The reference's gate at (m, b, e) is the specification's score: its contraction pairs x[m,b,d] with W[e,d]. -/
theorem gate_apply (m : Fin 6) (b : Fin 8192) (e : Fin 2048) :
    val_main_v1 (F := Ideal) x0 x1 (ix3 m b e) = Cert.Spec.score x0 x1 m b e := by
  rw [val_main_v1_apply, val_main_v0_apply]
  show Ideal.tanh _ = Ideal.tanh _
  refine congrArg Ideal.tanh (Finset.sum_congr rfl fun d _ => ?_)
  have el : lidx_main_v0 (ix3 m b e) d = ix3 m b d :=
    funext fun a => Fin.ext (by match a with | ⟨0, _⟩ => rfl | ⟨1, _⟩ => rfl | ⟨2, _⟩ => rfl)
  have er : ridx_main_v0 (ix3 m b e) d = ix2 e d :=
    funext fun a => Fin.ext (by match a with | ⟨0, _⟩ => rfl | ⟨1, _⟩ => rfl)
  rw [el, er]

/-- The number the reference subtracts from the scores of (b, e): their maximum folded from −∞, then taken against −∞
    once more. -/
theorem shift_apply (b : Fin 8192) (e : Fin 2048) :
    val_main_v4 (F := Ideal) x0 x1 (ix2 b e)
      = max (⊥ : EReal) ((Finset.univ : Finset (Fin 6)).fold max (⊥ : EReal) (fun k => Cert.Spec.score x0 x1 k b e)) := by
  rw [val_main_v4_apply, val_main_v3_apply, val_main_cst_0_apply]
  show max (Ideal.ofBits .f32 0xFF800000#32) (val_main_v2 (F := Ideal) x0 x1 (ix2 b e)) = _
  rw [Cert.ScoreLaws.ofBits_neg_inf_f32]
  refine congrArg (max (⊥ : EReal)) ?_
  unfold val_main_v2
  show Host.reduce (max : EReal → EReal → EReal) (val_main_v1 (F := Ideal) x0 x1) (val_main_cst (F := Ideal))
      reducesTo_S6x8192x2048_S8192x2048_d0 h_S_ (ix2 b e) = _
  rw [Host.reduce_eq_fold_single (max : EReal → EReal → EReal) _ _ reducesTo_S6x8192x2048_S8192x2048_d0 (by decide) h_S_ (ix2 b e)]
  rw [val_main_cst_apply]
  show (Finset.univ : Finset (Fin 6)).fold max (Ideal.ofBits .f32 0xFF800000#32) _ = _
  rw [Cert.ScoreLaws.ofBits_neg_inf_f32]
  refine congrArg (fun f => (Finset.univ : Finset (Fin 6)).fold max (⊥ : EReal) f) (funext fun k => ?_)
  rw [← gate_apply x0 x1 k b e]
  exact congrArg (val_main_v1 (F := Ideal) x0 x1)
    (funext fun a => Fin.ext (by match a with | ⟨0, _⟩ => rfl | ⟨1, _⟩ => rfl | ⟨2, _⟩ => rfl))

/-- The reference's exponential at (m, b, e): of the score less the shift of (b, e). -/
theorem expo_apply (m : Fin 6) (b : Fin 8192) (e : Fin 2048) :
    val_main_v8 (F := Ideal) x0 x1 (ix3 m b e)
      = Ideal.exp (Cert.Spec.score x0 x1 m b e - val_main_v4 (F := Ideal) x0 x1 (ix2 b e)) := by
  rw [val_main_v8_apply, val_main_v7_apply, val_main_v6_apply, val_main_v5_apply, gate_apply]
  have ei : idx_main_v5 (idx_main_v6 (ix3 m b e)) = ix2 b e :=
    funext fun a => Fin.ext (by match a with | ⟨0, _⟩ => rfl | ⟨1, _⟩ => rfl)
  rw [ei]
  rfl

/-- The reference's weight at (m, b, e) is the specification's unshifted weight: the scores are reals, so is the
    shift, and a real shift cancels between numerator and denominator. -/
theorem weight_apply (m : Fin 6) (b : Fin 8192) (e : Fin 2048) :
    val_main_v12 (F := Ideal) x0 x1 (ix3 m b e) = Cert.Spec.weight x0 x1 m b e := by
  rw [val_main_v12_apply, val_main_v11_apply, val_main_v10_apply, val_main_v9_apply, val_main_cst_1_apply]
  have ei : idx_main_v10 (idx_main_v11 (ix3 m b e)) = ix2 b e :=
    funext fun a => Fin.ext (by match a with | ⟨0, _⟩ => rfl | ⟨1, _⟩ => rfl)
  rw [ei]
  have ek : ∀ k : Fin 6, idx_main_v9 (ix2 b e) k = ix3 k b e := fun k =>
    funext fun a => Fin.ext (by match a with | ⟨0, _⟩ => rfl | ⟨1, _⟩ => rfl | ⟨2, _⟩ => rfl)
  simp only [ek, expo_apply]
  show Ideal.div _ (Ideal.ofBits .f32 0x00000000#32 + _) = _
  rw [Ideal.ofBits_zero_f32, zero_add, shift_apply]
  choose s hs using fun k : Fin 6 => Cert.ScoreLaws.tanh_real (∑ d : Fin 2048, x0 (ix3 k b d) * x1 (ix2 e d))
  have hsc : ∀ k, Cert.Spec.score x0 x1 k b e = (s k : EReal) := fun k => hs k
  obtain ⟨c, hc⟩ := Cert.ScoreLaws.max_real_six s
  unfold Cert.Spec.weight
  simp only [hsc]
  rw [hc]
  exact Cert.ScoreLaws.softmax_shift s c m

end Cert.RefValue

end
-- ==== Proof.RefScale.lean ====
/-
  The reference's row scale, read at an index, is the specification's.

  The reference compares each modality's feature sum at row b with zero, widens the one-bit answers to 32-bit integers,
  adds the six of them and one more in integer arithmetic, and converts the total to a float. The specification adds the
  six converted flags and one as reals. The total is at most seven, so the integer sum does not wrap (the counting law).
-/
import proofs.«141295_j14577119003164_2_alg».proof.Proof.Gen.ReferenceIdeal.Read
import proofs.«141295_j14577119003164_2_alg».proof.Proof.ScoreLaws
import proofs.«141295_j14577119003164_2_alg».proof.Proof.Spec

noncomputable section

namespace Cert.RefValue

open Cert.ReferenceIdeal Cert.ReferenceIdeal.Gen Cert.ReferenceIdeal.Read
open Idealize.ShloMosaic Idealize.ShloMosaic.ValueIdx Idealize.ShloMosaic.TcCoe Idealize.ShloMosaic.StableHlo

variable (x0 : (⟨S6x8192x2048, .f32⟩ : BufTy).Contents (Elt Ideal))

/-- The reference's widened flag of modality k at row b. -/
theorem flag_apply (k : Fin 6) (b : Fin 8192) :
    val_main_v18 (F := Ideal) x0 (ix2 k b) = (Ideal.cmp .oeq (∑ d : Fin 2048, x0 (ix3 k b d)) 0).setWidth 32 := by
  rw [val_main_v18_apply, val_main_v17_apply, val_main_v16_apply, val_main_cst_4_apply, val_main_v15_apply, val_main_cst_3_apply]
  have ed : ∀ d : Fin 2048, idx_main_v15 (ix2 k b) d = ix3 k b d := fun d =>
    funext fun a => Fin.ext (by match a with | ⟨0, _⟩ => rfl | ⟨1, _⟩ => rfl | ⟨2, _⟩ => rfl)
  simp only [ed]
  show (Ideal.cmp .oeq (Ideal.ofBits .f32 0x00000000#32 + _) (Ideal.ofBits .f32 0x00000000#32)).setWidth 32 = _
  rw [Ideal.ofBits_zero_f32, zero_add]

/-- The reference's integer count at row b: the 32-bit sum, from zero, of the six widened flags. -/
theorem count_apply (b : Fin 8192) :
    val_main_v19 (F := Ideal) x0 (ix1 b)
      = (Finset.univ : Finset (Fin 6)).fold IntOp.addi 0#32
          (fun k => (Ideal.cmp .oeq (∑ d : Fin 2048, x0 (ix3 k b d)) 0).setWidth 32) := by
  unfold val_main_v19
  rw [Host.reduce_eq_fold_single IntOp.addi _ _ reducesTo_S6x8192_S8192_d0 (by decide) h_S_ (ix1 b), val_main_c_apply]
  refine congrArg (fun f => (Finset.univ : Finset (Fin 6)).fold IntOp.addi 0#32 f) (funext fun k => ?_)
  rw [← flag_apply x0 k b]
  exact congrArg (val_main_v18 (F := Ideal) x0)
    (funext fun a => Fin.ext (by match a with | ⟨0, _⟩ => rfl | ⟨1, _⟩ => rfl))

/-- The reference's scale at (b, e) is the specification's row scale of b. -/
theorem scale_apply (b : Fin 8192) (e : Fin 2048) :
    val_main_v24 (F := Ideal) x0 (ix2 b e) = Cert.Spec.rowScale x0 b := by
  rw [val_main_v24_apply, val_main_v23_apply, val_main_v22_apply, val_main_v21_apply, val_main_v20_apply, val_main_c_5_apply]
  have ei : idx_main_v23 (idx_main_v24 (ix2 b e)) = ix1 b :=
    funext fun a => Fin.ext (by match a with | ⟨0, _⟩ => rfl)
  rw [ei, count_apply]
  exact Cert.ScoreLaws.count_law fun k => Ideal.cmp .oeq (∑ d : Fin 2048, x0 (ix3 k b d)) 0

end Cert.RefValue

end
-- ==== Proof.RefG.lean ====
/-
  The reference's result array is the specification's function G of its two arguments.

  At (b, e) the reference multiplies x[m,b,e] by its weight, adds the six products from zero, and multiplies by its scale
  of row b; its weight is the specification's unshifted weight and its scale the specification's row scale.
-/
import proofs.«141295_j14577119003164_2_alg».proof.Proof.RefWeight
import proofs.«141295_j14577119003164_2_alg».proof.Proof.RefScale

noncomputable section

namespace Cert.RefValue

open Cert.ReferenceIdeal Cert.ReferenceIdeal.Gen Cert.ReferenceIdeal.Read
open Idealize.ShloMosaic Idealize.ShloMosaic.ValueIdx Idealize.ShloMosaic.TcCoe Idealize.ShloMosaic.StableHlo

theorem ref_is_G (x0 : (⟨S6x8192x2048, .f32⟩ : BufTy).Contents (Elt Ideal)) (x1 : (⟨S2048x2048, .f32⟩ : BufTy).Contents (Elt Ideal)) :
    val_main_v25 (F := Ideal) x0 x1 = Cert.Spec.G x0 x1 := by
  funext i
  obtain ⟨b, e, rfl⟩ : ∃ (b : Fin 8192) (e : Fin 2048), i = ix2 b e := ⟨i 0, i 1, eq_ix2 i⟩
  rw [val_main_v25_apply, val_main_v14_apply, val_main_cst_2_apply, scale_apply]
  have ek : ∀ k : Fin 6, idx_main_v14 (ix2 b e) k = ix3 k b e := fun k =>
    funext fun a => Fin.ext (by match a with | ⟨0, _⟩ => rfl | ⟨1, _⟩ => rfl | ⟨2, _⟩ => rfl)
  simp only [ek, val_main_v13_apply, weight_apply]
  show (Ideal.ofBits .f32 0x00000000#32 + _) * _ = _
  rw [Ideal.ofBits_zero_f32, zero_add]
  rfl

end Cert.RefValue

end
-- ==== Proof.lean ====
/-
  A gated fusion of six modalities: the kernel equals its jnp reference on the extended reals.

  x has shape [6, 8192, 2048] (modality m, batch row b, feature d) and W has shape [2048, 2048]. Both programs compute
      out[b, e] = (Σ_m x[m,b,e] · softmax_m (tanh (Σ_d x[m,b,d] · W[e,d]))) · (1 + #{m : Σ_d x[m,b,d] = 0}).
  They differ in arrangement only. The kernel transposes W once, walks the batch in 64 blocks of 128 rows and each block's
  2048 output features in eight slabs of 256, and takes the softmax of the gates as exp g_m / Σ_k exp g_k; the reference
  first subtracts the largest gate. Every gate is a hyperbolic tangent, hence a real number in [−1, 1] whatever the
  inputs, so the largest gate is a real and the shift cancels between numerator and denominator: the two softmaxes are
  equal as extended reals, and the precondition on the inputs is never opened. The kernel counts the vanishing modality
  sums by adding 0/1 flags as reals, the reference by adding them as 32-bit integers and converting the total; the total
  is at most seven, so nothing wraps. Changes of float format are the identity on the extended reals, and a sum is the
  same sum in any order or tiling.

  Modules: ScoreLaws (the extended-real laws), Spec (the common function G), RefWeight / RefScale / RefG (the reference's
  result is G), KernelOps / KernelChunk / KernelBlock / KernelArray (the kernel's result is G). The kernel is its own
  idealization (no rewrite was applied), so `preserves` holds trivially; the three frames are the generated runs.
-/
import proofs.«141295_j14577119003164_2_alg».proof.Defs
import proofs.«141295_j14577119003164_2_alg».proof.Proof.Gen.Kernel
import proofs.«141295_j14577119003164_2_alg».proof.Proof.Gen.Kernel.Skeleton
import proofs.«141295_j14577119003164_2_alg».proof.Proof.Gen.Kernel.Launch
import proofs.«141295_j14577119003164_2_alg».proof.Proof.Gen.Kernel.Points
import proofs.«141295_j14577119003164_2_alg».proof.Proof.Gen.Kernel.Frame
import proofs.«141295_j14577119003164_2_alg».proof.Proof.Gen.KernelIdeal
import proofs.«141295_j14577119003164_2_alg».proof.Proof.Gen.KernelIdeal.Skeleton
import proofs.«141295_j14577119003164_2_alg».proof.Proof.Gen.KernelIdeal.Launch
import proofs.«141295_j14577119003164_2_alg».proof.Proof.Gen.KernelIdeal.Points
import proofs.«141295_j14577119003164_2_alg».proof.Proof.Gen.KernelIdeal.Frame
import proofs.«141295_j14577119003164_2_alg».proof.Proof.Gen.ReferenceIdeal
import proofs.«141295_j14577119003164_2_alg».proof.Proof.Gen.Pre_finite_inputs
import proofs.«141295_j14577119003164_2_alg».proof.Proof.Gen.KernelIdeal.Value
import proofs.«141295_j14577119003164_2_alg».proof.Proof.Gen.ReferenceIdeal.Run
import proofs.«141295_j14577119003164_2_alg».proof.Proof.Gen.ReferenceIdeal.Read
import proofs.«141295_j14577119003164_2_alg».proof.Proof.KernelArray
import proofs.«141295_j14577119003164_2_alg».proof.Proof.RefG
import Idealize.ShloMosaic.Adequacy
import Idealize.ShloMosaic.Init

noncomputable section

namespace Cert.Proof

open Idealize.ShloMosaic Idealize.ShloMosaic.TcCoe Idealize.SL.Sem

/-- The kernel as printed runs, and leaves x and W as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten: there is nothing to preserve. -/
theorem preserves : Cert.preserves_Kernel_KernelIdeal := trivial

/-- Both programs, from memories agreeing on x and W, end with the result array at G x W. -/
theorem algebraic : Cert.algebraic_KernelIdeal_ReferenceIdeal := by
  intro m ρ m' ρ' _ hagree
  refine ⟨fun c => Cert.Spec.G (m ((c : Thread Cert.KernelIdeal.nD Cert.KernelIdeal.τ).loc Cert.KernelIdeal.main_arg0))
      (m ((c : Thread Cert.KernelIdeal.nD Cert.KernelIdeal.τ).loc Cert.KernelIdeal.main_arg1)), Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.RefValue.ref_is_G, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
